-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x6890 : Shape := ⟨3, ![8, 3, 6890]⟩
abbrev S1723x6890 : Shape := ⟨2, ![1723, 6890]⟩
abbrev S_ : Shape := ⟨0, ![]⟩

class Facts : Prop where
  bcast_S_S8x3x6890 : S_.BroadcastsInDim S8x3x6890 (![] : Fin 0 → Fin S8x3x6890.rank)
  reducesTo_S8x3x6890_S_d0_1_2 : S8x3x6890.ReducesTo [0, 1, 2] S_
  h_S_ : 0 < S_.numel
  bcast_S_S1723x6890 : S_.BroadcastsInDim S1723x6890 (![] : Fin 0 → Fin S1723x6890.rank)
  reducesTo_S1723x6890_S_d0_1 : S1723x6890.ReducesTo [0, 1] S_

variable [Facts]

def fn {F : FTy → Type} [FloatOps F] (main_arg0 : FVec F S8x3x6890 .f32) (main_arg1 : FVec F S1723x6890 .f32) : IVec S_ 1 :=
  let main_v0 : FVec F S8x3x6890 .f32 := Host.absf main_arg0
  let main_cst : FVec F S_ .f32 := constant S_ .f32 0x7F800000#32
  let main_v1 : FVec F S8x3x6890 .f32 := broadcastInDim S8x3x6890 ![] bcast_S_S8x3x6890 main_cst
  let main_v2 : IVec S8x3x6890 1 := cmpf .olt main_v0 main_v1
  let main_c : IVec S_ 1 := constantI S_ 1 1#1
  let main_v3 : IVec S_ 1 := (fun x v => Host.reduce IntOp.andi x v reducesTo_S8x3x6890_S_d0_1_2 h_S_) main_v2 main_c
  let main_v4 : FVec F S1723x6890 .f32 := Host.absf main_arg1
  let main_cst_0 : FVec F S_ .f32 := constant S_ .f32 0x7F800000#32
  let main_v5 : FVec F S1723x6890 .f32 := broadcastInDim S1723x6890 ![] bcast_S_S1723x6890 main_cst_0
  let main_v6 : IVec S1723x6890 1 := cmpf .olt main_v4 main_v5
  let main_c_1 : IVec S_ 1 := constantI S_ 1 1#1
  let main_v7 : IVec S_ 1 := (fun x v => Host.reduce IntOp.andi x v reducesTo_S1723x6890_S_d0_1 h_S_) main_v6 main_c_1
  let main_v8 : IVec S_ 1 := andi main_v3 main_v7
  main_v8
-- ==== Kernel.lean ====
abbrev S8x3x6890 : Shape := ⟨3, ![8, 3, 6890]⟩
abbrev S1723x6890 : Shape := ⟨2, ![1723, 6890]⟩
abbrev S24x6890 : Shape := ⟨2, ![24, 6890]⟩
abbrev S24x1723 : Shape := ⟨2, ![24, 1723]⟩
abbrev S384x6890 : Shape := ⟨2, ![384, 6890]⟩
abbrev S24x384 : Shape := ⟨2, ![24, 384]⟩
abbrev S8x3x1723 : Shape := ⟨3, ![8, 3, 1723]⟩

abbrev nBuf : Space → Nat
  | .hbm => 5
  | .vmem => 5
  | .smem => 0
  | _ => 0

abbrev bufTy : (tb : Table) → Fin (tcTables nBuf tb) → BufTy
  | .hbm, ⟨0, _⟩ => ⟨S8x3x6890, .f32⟩
  | .hbm, ⟨1, _⟩ => ⟨S1723x6890, .f32⟩
  | .hbm, ⟨2, _⟩ => ⟨S24x6890, .f32⟩
  | .hbm, ⟨3, _⟩ => ⟨S24x1723, .f32⟩
  | .hbm, ⟨4, _⟩ => ⟨S8x3x1723, .f32⟩
  | .local _ .vmem, ⟨0, _⟩ => ⟨S24x6890, .f32⟩
  | .local _ .vmem, ⟨1, _⟩ => ⟨S384x6890, .f32⟩
  | .local _ .vmem, ⟨2, _⟩ => ⟨S384x6890, .f32⟩
  | .local _ .vmem, ⟨3, _⟩ => ⟨S24x384, .f32⟩
  | .local _ .vmem, ⟨4, _⟩ => ⟨S24x384, .f32⟩
  | _, _ => ⟨S8x3x6890, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x6890 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x6890 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x3x6890_S24x6890 : S8x3x6890.ShapeCasts S24x6890
  inb_S24x6890_S24x6890_0_0 : ∀ a, (![0, 0] : Fin 2 → Nat) a + S24x6890.size a ≤ S24x6890.size a
  h_S24x6890 : 0 < S24x6890.numel
  shapeCasts_S24x6890_S24x6890 : S24x6890.ShapeCasts S24x6890
  inb_S384x6890_S384x6890_0_0 : ∀ a, (![0, 0] : Fin 2 → Nat) a + S384x6890.size a ≤ S384x6890.size a
  h_S384x6890 : 0 < S384x6890.numel
  inb_S24x384_S24x384_0_0 : ∀ a, (![0, 0] : Fin 2 → Nat) a + S24x384.size a ≤ S24x384.size a
  h_S24x384 : 0 < S24x384.numel
  shapeCasts_S24x1723_S8x3x1723 : S24x1723.ShapeCasts S8x3x1723
  dot_S24x6890_S384x6890_S24x384_1_1_0_0_n_n_wf : DotDims.WF S24x6890 S384x6890 S24x384 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S24x6890.size a ≤ S24x6890.size a
  hwx0_0 : ∀ i : grid0.Coords, EltTy.bits .f32 = 32 ∨ (Rect.block (s := S24x6890) S24x6890.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S384x6890.size a < S1723x6890.size a
  hwx0_1 : ∀ i : grid0.Coords, EltTy.bits .f32 = 32 ∨ (Rect.unit (s := S1723x6890) (fun a => cc0_transform_1 i a * S384x6890.size a) (fun a => (Pipeline.Clip.of (cc0_transform_1 i a) (S384x6890.size a) (S1723x6890.size a)).extent (S384x6890.size a)) fun a => Pipeline.Clip.inb (Pipeline.Clip.ok_of (hstart0_1 i a))).WholeWords (EltTy.packing .f32)
  hwxs0_1 : ∀ i : grid0.Coords, EltTy.bits .f32 = 32 ∨ (Rect.unit (s := S384x6890) (fun _ => 0) (fun a => (Pipeline.Clip.of (cc0_transform_1 i a) (S384x6890.size a) (S1723x6890.size a)).extent (S384x6890.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S24x384.size a < S24x1723.size a
  hwx0_2 : ∀ i : grid0.Coords, EltTy.bits .f32 = 32 ∨ (Rect.unit (s := S24x1723) (fun a => cc0_transform_2 i a * S24x384.size a) (fun a => (Pipeline.Clip.of (cc0_transform_2 i a) (S24x384.size a) (S24x1723.size a)).extent (S24x384.size a)) fun a => Pipeline.Clip.inb (Pipeline.Clip.ok_of (hstart0_2 i a))).WholeWords (EltTy.packing .f32)
  hwxs0_2 : ∀ i : grid0.Coords, EltTy.bits .f32 = 32 ∨ (Rect.unit (s := S24x384) (fun _ => 0) (fun a => (Pipeline.Clip.of (cc0_transform_2 i a) (S24x384.size a) (S24x1723.size a)).extent (S24x384.size a)) fun a => (Nat.zero_add _).trans_le (Pipeline.Clip.extent_le (Pipeline.Clip.ok_of (hstart0_2 i a)))).WholeWords (EltTy.packing .f32)

variable [Facts₀]

def dot_S24x6890_S384x6890_S24x384_1_1_0_0_n_n : DotDims S24x6890 S384x6890 S24x384 where
  lhsContracting := [1]
  rhsContracting := [1]
  lhsNonContracting := [0]
  rhsNonContracting := [0]
  lhsBatch := []
  rhsBatch := []
  wf := dot_S24x6890_S384x6890_S24x384_1_1_0_0_n_n_wf

abbrev win0_0 : Pipeline.Window sig grid0 :=
  Pipeline.Window.ofSpec (Memref.whole main_v0) S24x6890.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S384x6890.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S24x384.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x6890 : Shape := ⟨3, ![8, 3, 6890]⟩
abbrev S1723x6890 : Shape := ⟨2, ![1723, 6890]⟩
abbrev S8x6890x3 : Shape := ⟨3, ![8, 6890, 3]⟩
abbrev S1x6890x3 : Shape := ⟨3, ![1, 6890, 3]⟩
abbrev S6890x3 : Shape := ⟨2, ![6890, 3]⟩
abbrev S1723x3 : Shape := ⟨2, ![1723, 3]⟩
abbrev S1x1723x3 : Shape := ⟨3, ![1, 1723, 3]⟩
abbrev S8x1723x3 : Shape := ⟨3, ![8, 1723, 3]⟩
abbrev S8x3x1723 : Shape := ⟨3, ![8, 3, 1723]⟩

abbrev nBuf : Space → Nat
  | .hbm => 37
  | .vmem => 0
  | .smem => 0
  | _ => 0

abbrev bufTy : (tb : Table) → Fin (tcTables nBuf tb) → BufTy
  | .hbm, ⟨0, _⟩ => ⟨S8x3x6890, .f32⟩
  | .hbm, ⟨1, _⟩ => ⟨S1723x6890, .f32⟩
  | .hbm, ⟨2, _⟩ => ⟨S8x6890x3, .f32⟩
  | .hbm, ⟨3, _⟩ => ⟨S1x6890x3, .f32⟩
  | .hbm, ⟨4, _⟩ => ⟨S6890x3, .f32⟩
  | .hbm, ⟨5, _⟩ => ⟨S1723x3, .f32⟩
  | .hbm, ⟨6, _⟩ => ⟨S1x6890x3, .f32⟩
  | .hbm, ⟨7, _⟩ => ⟨S6890x3, .f32⟩
  | .hbm, ⟨8, _⟩ => ⟨S1723x3, .f32⟩
  | .hbm, ⟨9, _⟩ => ⟨S1x6890x3, .f32⟩
  | .hbm, ⟨10, _⟩ => ⟨S6890x3, .f32⟩
  | .hbm, ⟨11, _⟩ => ⟨S1723x3, .f32⟩
  | .hbm, ⟨12, _⟩ => ⟨S1x6890x3, .f32⟩
  | .hbm, ⟨13, _⟩ => ⟨S6890x3, .f32⟩
  | .hbm, ⟨14, _⟩ => ⟨S1723x3, .f32⟩
  | .hbm, ⟨15, _⟩ => ⟨S1x6890x3, .f32⟩
  | .hbm, ⟨16, _⟩ => ⟨S6890x3, .f32⟩
  | .hbm, ⟨17, _⟩ => ⟨S1723x3, .f32⟩
  | .hbm, ⟨18, _⟩ => ⟨S1x6890x3, .f32⟩
  | .hbm, ⟨19, _⟩ => ⟨S6890x3, .f32⟩
  | .hbm, ⟨20, _⟩ => ⟨S1723x3, .f32⟩
  | .hbm, ⟨21, _⟩ => ⟨S1x6890x3, .f32⟩
  | .hbm, ⟨22, _⟩ => ⟨S6890x3, .f32⟩
  | .hbm, ⟨23, _⟩ => ⟨S1723x3, .f32⟩
  | .hbm, ⟨24, _⟩ => ⟨S1x6890x3, .f32⟩
  | .hbm, ⟨25, _⟩ => ⟨S6890x3, .f32⟩
  | .hbm, ⟨26, _⟩ => ⟨S1723x3, .f32⟩
  | .hbm, ⟨27, _⟩ => ⟨S1x1723x3, .f32⟩
  | .hbm, ⟨28, _⟩ => ⟨S1x1723x3, .f32⟩
  | .hbm, ⟨29, _⟩ => ⟨S1x1723x3, .f32⟩
  | .hbm, ⟨30, _⟩ => ⟨S1x1723x3, .f32⟩
  | .hbm, ⟨31, _⟩ => ⟨S1x1723x3, .f32⟩
  | .hbm, ⟨32, _⟩ => ⟨S1x1723x3, .f32⟩
  | .hbm, ⟨33, _⟩ => ⟨S1x1723x3, .f32⟩
  | .hbm, ⟨34, _⟩ => ⟨S1x1723x3, .f32⟩
  | .hbm, ⟨35, _⟩ => ⟨S8x1723x3, .f32⟩
  | .hbm, ⟨36, _⟩ => ⟨S8x3x1723, .f32⟩
  | _, _ => ⟨S8x3x6890, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩

abbrev nD : Nat := 1
abbrev τ : Topo := Topo.v7x

variable {F : FTy → Type} [FloatOps F]

class Facts₀ : Prop where
  transposes_S8x3x6890_S8x6890x3_0_2_1 : S8x3x6890.Transposes [0, 2, 1] S8x6890x3
  slices_S8x6890x3_S1x6890x3_0_0_0 : S8x6890x3.Slices ![0, 0, 0] S1x6890x3
  shapeCasts_S1x6890x3_S6890x3 : S1x6890x3.ShapeCasts S6890x3
  slices_S8x6890x3_S1x6890x3_1_0_0 : S8x6890x3.Slices ![1, 0, 0] S1x6890x3
  slices_S8x6890x3_S1x6890x3_2_0_0 : S8x6890x3.Slices ![2, 0, 0] S1x6890x3
  slices_S8x6890x3_S1x6890x3_3_0_0 : S8x6890x3.Slices ![3, 0, 0] S1x6890x3
  slices_S8x6890x3_S1x6890x3_4_0_0 : S8x6890x3.Slices ![4, 0, 0] S1x6890x3
  slices_S8x6890x3_S1x6890x3_5_0_0 : S8x6890x3.Slices ![5, 0, 0] S1x6890x3
  slices_S8x6890x3_S1x6890x3_6_0_0 : S8x6890x3.Slices ![6, 0, 0] S1x6890x3
  slices_S8x6890x3_S1x6890x3_7_0_0 : S8x6890x3.Slices ![7, 0, 0] S1x6890x3
  bcast_S1723x3_S1x1723x3_1_2 : S1723x3.BroadcastsInDim S1x1723x3 (![1, 2] : Fin 2 → Fin S1x1723x3.rank)
  concatenates_S1x1723x3_S1x1723x3_S1x1723x3_S1x1723x3_S1x1723x3_S1x1723x3_S1x1723x3_S1x1723x3_S8x1723x3_d0 : Shape.Concatenates [S1x1723x3, S1x1723x3, S1x1723x3, S1x1723x3, S1x1723x3, S1x1723x3, S1x1723x3, S1x1723x3] S8x1723x3 0
  transposes_S8x1723x3_S8x3x1723_0_2_1 : S8x1723x3.Transposes [0, 2, 1] S8x3x1723
  dot_S1723x6890_S6890x3_S1723x3_1_0_0_1_n_n_wf : DotDims.WF S1723x6890 S6890x3 S1723x3 [1] [0] [0] [1] [] []

variable [Facts₀]

def dot_S1723x6890_S6890x3_S1723x3_1_0_0_1_n_n : DotDims S1723x6890 S6890x3 S1723x3 where
  lhsContracting := [1]
  rhsContracting := [0]
  lhsNonContracting := [0]
  rhsNonContracting := [1]
  lhsBatch := []
  rhsBatch := []
  wf := dot_S1723x6890_S6890x3_S1723x3_1_0_0_1_n_n_wf

class Facts : Prop extends Facts₀ where

variable [Facts]
-- ==== Proof.KernelBody.lean ====
/-
  The kernel body's triple for `Kernel`, at any float instance: on three whole staging memrefs — the first holding
  `x0` (a [24, 6890] block of the flattened input), the second `x1` (a [384, 6890] slab of the matrix), the third
  anything — the body loads the first two whole, loads the third (a value nothing uses), and stores into the third,
  whole and unmasked, the product of `x0` by `x1` over their shared last axis into the zero accumulator. The first
  two buffers end as they were; the third ends at that product, whatever it held.
-/
import proofs.«153325_g43009802502566_cont_9to1c4_365_17_alg».proof.Proof.Gen.Kernel.Launch
import proofs.«153325_g43009802502566_cont_9to1c4_365_17_alg».proof.Proof.Gen.Kernel.Skeleton
import proofs.«153325_g43009802502566_cont_9to1c4_365_17_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole rectangles the body loads and stores through. -/
abbrev rx : Rect S24x6890 := Rect.unit (s := S24x6890) ![0, 0] S24x6890.size inb_S24x6890_S24x6890_0_0
abbrev rm : Rect S384x6890 := Rect.unit (s := S384x6890) ![0, 0] S384x6890.size inb_S384x6890_S384x6890_0_0
abbrev ro : Rect S24x384 := Rect.unit (s := S24x384) ![0, 0] S24x384.size inb_S24x384_S24x384_0_0

theorem zero2 : (![0, 0] : Fin 2 → Nat) = fun _ => 0 := funext fun a => by fin_cases a <;> rfl

/-- What the body leaves in the output's staging buffer, from what the two input buffers hold: its one store. -/
def out (x0 : Vec F S24x6890 .f32) (x1 : Vec F S384x6890 .f32) : Vec F S24x384 .f32 :=
  View.canon [⟨ro, k0_pay1 (View.ld x0 rx) (View.ld x1 rm)⟩]

/-- The store is of the whole buffer, the loads of whole buffers: the buffer ends at the product of the contents. -/
theorem out_eq (x0 : Vec F S24x6890 .f32) (x1 : Vec F S384x6890 .f32) : out x0 x1 = k0_pay1 x0 x1 := by
  unfold out
  rw [View.canon_unit_zero zero2, View.ld_unit_zero zero2, View.ld_unit_zero zero2]

set_option maxHeartbeats 1000000 in
/-- The body on whole staging memrefs. -/
theorem sound_kernel (c : Dev nD) (E : Set ℕ) (i : grid0.Coords)
    (arg1 : Memref sig .tc .vmem S24x6890 .f32) (harg1 : arg1.IsWhole)
    (arg2 : Memref sig .tc .vmem S384x6890 .f32) (harg2 : arg2.IsWhole)
    (arg3 : Memref sig .tc .vmem S24x384 .f32) (harg3 : arg3.IsWhole)
    (x0 : Vec F S24x6890 .f32) (x1 : Vec F S384x6890 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out x0 x1)) -∗ K ⟨⟩))
      ⊢ wp frame (wpE (defs₀ (F := F)) Variants.none c none) E (cc0__matmul_block i arg1 harg1 arg2 harg2 arg3 harg3) K := by
  simp only [cc0__matmul_block_eq_skeleton]; unfold cc0__matmul_block_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero zero2 inb_S24x384_S24x384_0_0 y⟩)

end Cert.Kernel.Body

end
-- ==== Proof.KernelFrame.lean ====
/-
  The frame of the word-level program `Kernel`, at any float instance: from any memory with zero counters, every
  weakly fair execution of @main terminates, nothing faults, and the two argument arrays end as they were launched.

  The kernel's body multiplies a [24, 6890] block by a [384, 6890] slab of the matrix. The slab's window does not tile
  the matrix (1723 = 4·384 + 187): at the last grid point the staging buffer's rows past the matrix's end hold words
  that nothing names, and the product, which may read all of the slab, cannot be named as a function of the arrays. So
  the proof data constrain what the body leaves in each staging buffer instead of naming it: an input's buffer is left as
  it was found, and nothing is said of the output's. That is enough for the frame: the body reads and writes whole
  staging buffers it owns, whatever they hold, so it never faults; an input's array is never written back; and the first
  argument, which no window stages, is bypassed by the region and written by no host line.
-/
import proofs.«153325_g43009802502566_cont_9to1c4_365_17_alg».proof.Proof.Gen.Kernel.Frame
import proofs.«153325_g43009802502566_cont_9to1c4_365_17_alg».proof.Proof.Gen.Kernel.Skeleton
import proofs.«153325_g43009802502566_cont_9to1c4_365_17_alg».proof.Proof.KernelBody

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`, with the staging contents constrained rather than named: the arrays
    as the region finds them; the body leaves each input window's buffer as it found it, and may leave anything in the
    output window's; the invariant is the untouched rest of the core; nothing is owed; full shares. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => True
  Φ _ := Pipeline.ΦA spec0 c
  q _ := fullShare
  owed _ := 0

/-- The relation, window by window. -/
theorem after0 (c : Dev nD) (t : Fin cfg0.N) (Y X) : (rdat (F := F) m c).after 0 t Y X = (X = Y) := by dsimp only [rdat]
theorem after1 (c : Dev nD) (t : Fin cfg0.N) (Y X) : (rdat (F := F) m c).after 1 t Y X = (X = Y) := by dsimp only [rdat]
theorem after2 (c : Dev nD) (t : Fin cfg0.N) (Y X) : (rdat (F := F) m c).after 2 t Y X = True := by dsimp only [rdat]

/-- Every array is held at the full share. -/
theorem share_full (c : Dev nD) (w : Fin cfg0.W) : (rdat (F := F) m c).share w = fullShare := by
  fin_cases w <;> rfl

/-! ## The body obligation -/

/-- At every point, whatever the three current staging buffers hold: the body loads the two inputs' whole, and stores
    the whole of the output's; it returns the inputs' buffers as they were and the output's at some contents, and the
    invariant and what the core owes pass through unread. -/
theorem body_obligation (c : Dev nD) :
    (rdat (F := F) m c).BodyObligation (defs₀ (F := F)) Variants.none () Set.univ := fun t Y _ => by
  rw [bigSep_W0, bigSep_W0]
  show _ ⊢ wp frame (wpE (defs₀ (F := F)) Variants.none c none) Set.univ (bodyAt0 t) _
  rw [show (rdat m c).Φ t.succ = (rdat m c).Φ t.castSucc from rfl,
    show (rdat m c).owesAt () t.succ = (rdat m c).owesAt () t.castSucc from rfl]
  simp only [after0, after1, after2]
  iintro ⟨HΦ, Ho, H0, H1, H2⟩
  iapply (Body.sound_kernel c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  iexists _; isplitr; · ipureintro; trivial
  iexact H2

/-! ## The run -/

/-- The buffers the host lines after the region write: the last reshape's result. -/
def T : Finset (Ref sig .tc) := {main_v2}

theorem sfx_writes : ∀ ops ∈ ([hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  have := Proc.devRef_injective (τ := τ) _ hb
  subst this
  exact Finset.mem_singleton_self _

set_option backward.isDefEq.respectTransparency.types false in
/-- Every weakly fair execution of @main terminates, and every final state has each array of the pipeline at some
    contents it may hold after every write-back and every other unscoped buffer the later host lines do not write at
    its contents when the region was entered. -/
theorem run_main : θ_run defs (onTc (τ := τ) (main (F := F))) (s₀ m ρ)
    (Pipeline.RDat.FramePostR cfg0 (rdat m) T (fun c b => V0 m c (Proc.devRef .tc b))) :=
  Pipeline.RDat.θ_run_frame_around_T cfgs (0 : Fin 1) launch0 defs₀ Variants.none (rdat m) T m ρ main
    (hbody := body_obligation m) (hshare := share_full m)
    (howed := fun _ _ => rfl) (V₀ := V0 m) (opss := [hostOps1]) (hsub := sfx_sub) (hfresh := sfx_fresh) (hkeep := sfx_keeps)
    (hT := sfx_writes) (hmain := hmain m Variants.none) (hA := fun _ _ => rfl) (hΦ := fun _ _ => rfl)

/-! ## The frame -/

/-- The two argument arrays end as launched: the first is no window's array and no host line writes it, so it is as
    the region found it, which is as launched; the second is an input window's array, never written back, and no host
    line before the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 (Finset.mem_sdiff.mpr ⟨Pipeline.mem_restRefs_of main_arg0 (by decide) (by decide), by decide⟩)).trans
        (V_main_arg0 m c),
     (by
        have h1 := (h c).1 1
        rw [Pipeline.RDat.ArrAt_in (rdat m c) 1 rfl] at h1
        exact h1.trans (V_main_arg1 m c))⟩) (run_main m ρ)

end Cert.Kernel.HandFrame

end
-- ==== Proof.IdealBody.lean ====
/-
  The kernel body's triple for `KernelIdeal`, at any float instance: on three whole staging memrefs — the first holding
  `x0` (a [24, 6890] block of the flattened input), the second `x1` (a [384, 6890] slab of the matrix), the third
  anything — the body loads the first two whole, loads the third (a value nothing uses), and stores into the third,
  whole and unmasked, the product of `x0` by `x1` over their shared last axis into the zero accumulator. The first
  two buffers end as they were; the third ends at that product, whatever it held.
-/
import proofs.«153325_g43009802502566_cont_9to1c4_365_17_alg».proof.Proof.Gen.KernelIdeal.Launch
import proofs.«153325_g43009802502566_cont_9to1c4_365_17_alg».proof.Proof.Gen.KernelIdeal.Skeleton
import proofs.«153325_g43009802502566_cont_9to1c4_365_17_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole rectangles the body loads and stores through. -/
abbrev rx : Rect S24x6890 := Rect.unit (s := S24x6890) ![0, 0] S24x6890.size inb_S24x6890_S24x6890_0_0
abbrev rm : Rect S384x6890 := Rect.unit (s := S384x6890) ![0, 0] S384x6890.size inb_S384x6890_S384x6890_0_0
abbrev ro : Rect S24x384 := Rect.unit (s := S24x384) ![0, 0] S24x384.size inb_S24x384_S24x384_0_0

theorem zero2 : (![0, 0] : Fin 2 → Nat) = fun _ => 0 := funext fun a => by fin_cases a <;> rfl

/-- What the body leaves in the output's staging buffer, from what the two input buffers hold: its one store. -/
def out (x0 : Vec F S24x6890 .f32) (x1 : Vec F S384x6890 .f32) : Vec F S24x384 .f32 :=
  View.canon [⟨ro, k0_pay1 (View.ld x0 rx) (View.ld x1 rm)⟩]

/-- The store is of the whole buffer, the loads of whole buffers: the buffer ends at the product of the contents. -/
theorem out_eq (x0 : Vec F S24x6890 .f32) (x1 : Vec F S384x6890 .f32) : out x0 x1 = k0_pay1 x0 x1 := by
  unfold out
  rw [View.canon_unit_zero zero2, View.ld_unit_zero zero2, View.ld_unit_zero zero2]

set_option maxHeartbeats 1000000 in
/-- The body on whole staging memrefs. -/
theorem sound_kernel (c : Dev nD) (E : Set ℕ) (i : grid0.Coords)
    (arg1 : Memref sig .tc .vmem S24x6890 .f32) (harg1 : arg1.IsWhole)
    (arg2 : Memref sig .tc .vmem S384x6890 .f32) (harg2 : arg2.IsWhole)
    (arg3 : Memref sig .tc .vmem S24x384 .f32) (harg3 : arg3.IsWhole)
    (x0 : Vec F S24x6890 .f32) (x1 : Vec F S384x6890 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out x0 x1)) -∗ K ⟨⟩))
      ⊢ wp frame (wpE (defs₀ (F := F)) Variants.none c none) E (cc0__matmul_block i arg1 harg1 arg2 harg2 arg3 harg3) K := by
  simp only [cc0__matmul_block_eq_skeleton]; unfold cc0__matmul_block_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero zero2 inb_S24x384_S24x384_0_0 y⟩)

end Cert.KernelIdeal.Body

end
-- ==== Proof.LibDotRows.lean ====
/-
  A product of an `[m, k]` array by an `[n, k]` array over their SHARED LAST axis (rows against rows), read at an
  output index `(p, e)` on the extended reals as the plain sum `∑ⱼ A[p, j] · B[e, j]` over `j : Fin k` — for the
  vector unit's matrix product into a zero accumulator, whatever the two operands' float formats. The dimension
  numbers enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDotRows

open Idealize.ShloMosaic Idealize.ShloMosaic.ValueIdx

/-- The sum over the contraction index, re-indexed by the contracted axis's one coordinate. -/
theorem contract_sum_rows {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (A : FVec Ideal ⟨2, ![m, k]⟩ φ₁) (B : FVec Ideal ⟨2, ![n, k]⟩ φ₂) (p : Fin m) (e : Fin n) :
    ∑ q : D.contr.Idx, A (D.lhsIdx (ix2 p e) q) * B (D.rhsIdx (ix2 p e) q) = ∑ j : Fin k, A (ix2 p j) * B (ix2 e j) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 e j := funext fun a => Fin.ext (by
    match a with
    | ⟨0, _⟩ => exact hr0 _ _
    | ⟨1, _⟩ => exact (hr1 _ _).trans hk)
  rw [el, er]

/-- The vector unit's matrix product of rows against rows into the zero accumulator, at `(p, e)`. -/
theorem matmul_zero_rows_apply {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (A : FVec Ideal ⟨2, ![m, k]⟩ φ₁) (B : FVec Ideal ⟨2, ![n, k]⟩ φ₂)
    (p : Fin m) (e : Fin n) :
    FloatOps.matmul D prec A B (constant ⟨2, ![m, n]⟩ .f32 0x00000000#32) (ix2 p e) = ∑ j : Fin k, A (ix2 p j) * B (ix2 e j) :=
  (Ideal.matmul_constant_zero_apply D prec A B (ix2 p e)).trans (contract_sum_rows D hr hs hl0 hl1 hr0 hr1 A B p e)

end Cert.LibDotRows

end
-- ==== Proof.IdealPay.lean ====
/-
  The body's one computed value on the extended reals, read at an index: the product of a [24, 6890] block `x0` by a
  [384, 6890] slab `x1` over their shared last axis into the zero accumulator is, at row `p` and column `e`,
  `∑ₙ x0[p, n] · x1[e, n]` — row `p` of the first against row `e` of the second.
-/
import proofs.«153325_g43009802502566_cont_9to1c4_365_17_alg».proof.Proof.Gen.KernelIdeal.Skeleton
import proofs.«153325_g43009802502566_cont_9to1c4_365_17_alg».proof.Proof.LibDotRows
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Where the dimension numbers send an output index and a contraction index: the left operand's row is the output's
    row, the right operand's row is the output's column, and both operands' columns are the contracted coordinate. -/
theorem lhs0 (i : S24x384.Idx) (q : dot_S24x6890_S384x6890_S24x384_1_1_0_0_n_n.contr.Idx) :
    (dot_S24x6890_S384x6890_S24x384_1_1_0_0_n_n.lhsIdx i q 0).val = (i 0).val := by
  unfold DotDims.lhsIdx
  rw [dif_neg (show ¬(0 : Fin S24x6890.rank) ∈ dot_S24x6890_S384x6890_S24x384_1_1_0_0_n_n.lhsBatch by decide),
    dif_pos (show (0 : Fin S24x6890.rank) ∈ dot_S24x6890_S384x6890_S24x384_1_1_0_0_n_n.lhsNonContracting by decide)]
  rfl
theorem lhs1 (i : S24x384.Idx) (q : dot_S24x6890_S384x6890_S24x384_1_1_0_0_n_n.contr.Idx) :
    (dot_S24x6890_S384x6890_S24x384_1_1_0_0_n_n.lhsIdx i q 1).val = (q ⟨0, by decide⟩).val :=
  dot_S24x6890_S384x6890_S24x384_1_1_0_0_n_n.lhsIdx_val_of_single rfl i q
theorem rhs0 (i : S24x384.Idx) (q : dot_S24x6890_S384x6890_S24x384_1_1_0_0_n_n.contr.Idx) :
    (dot_S24x6890_S384x6890_S24x384_1_1_0_0_n_n.rhsIdx i q 0).val = (i 1).val := by
  unfold DotDims.rhsIdx
  rw [dif_neg (show ¬(0 : Fin S384x6890.rank) ∈ dot_S24x6890_S384x6890_S24x384_1_1_0_0_n_n.rhsBatch by decide),
    dif_pos (show (0 : Fin S384x6890.rank) ∈ dot_S24x6890_S384x6890_S24x384_1_1_0_0_n_n.rhsNonContracting by decide)]
  rfl
theorem rhs1 (i : S24x384.Idx) (q : dot_S24x6890_S384x6890_S24x384_1_1_0_0_n_n.contr.Idx) :
    (dot_S24x6890_S384x6890_S24x384_1_1_0_0_n_n.rhsIdx i q 1).val = (q ⟨0, by decide⟩).val :=
  dot_S24x6890_S384x6890_S24x384_1_1_0_0_n_n.rhsIdx_val_of_single rfl i q

/-- The body's product at `(p, e)`. -/
theorem pay_apply (x0 : FVec Ideal S24x6890 .f32) (x1 : FVec Ideal S384x6890 .f32) (p : Fin 24) (e : Fin 384) :
    k0_pay1 (F := Ideal) x0 x1 (ix2 p e) = ∑ n : Fin 6890, x0 (ix2 p n) * x1 (ix2 e n) := by
  unfold k0_pay1
  rw [shapeCast_self]
  exact Cert.LibDotRows.matmul_zero_rows_apply dot_S24x6890_S384x6890_S24x384_1_1_0_0_n_n rfl rfl lhs0 lhs1 rhs0 rhs1 none x0 x1 p e

end Cert.KernelIdeal.Pay

end
-- ==== Proof.IdealData.lean ====
/-
  The proof data of the idealized kernel's one pipeline, and its body obligation, on the extended reals.

  The grid has five points. Point `t` works on rows `384·t … 384·t + 383` of the matrix `M` [1723, 6890] (a slab; the
  last one overhangs the matrix by 197 rows) against the whole flattened input `X` [24, 6890], and writes columns
  `384·t …` of the result [24, 1723] (the last block overhanging likewise). Entry `(r, o)` of the result is
  `∑ₙ X[r, n] · M[o, n]`: it reads row `o` of the matrix only. So on the columns inside the result the body's product
  does not depend on what the slab's buffer holds past the matrix's last row, and what each point writes back is its
  block of ONE array, `rowsProd X M`.
-/
import proofs.«153325_g43009802502566_cont_9to1c4_365_17_alg».proof.Proof.IdealBody
import proofs.«153325_g43009802502566_cont_9to1c4_365_17_alg».proof.Proof.IdealPay
import proofs.«153325_g43009802502566_cont_9to1c4_365_17_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Data

open Cert.KernelIdeal Cert.KernelIdeal.Gen Cert.KernelIdeal.Body Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The array the region's output ends holding -/

/-- Row `r` of `X` against row `o` of `M`. -/
def rowDot (X : FVec Ideal S24x6890 .f32) (M : FVec Ideal S1723x6890 .f32) (r : Fin 24) (o : Fin 1723) : EReal :=
  ∑ n : Fin 6890, X (ix2 r n) * M (ix2 o n)

/-- The [24, 1723] array of all of them. -/
def rowsProd (X : FVec Ideal S24x6890 .f32) (M : FVec Ideal S1723x6890 .f32) : FVec Ideal S24x1723 .f32 :=
  fun i => rowDot X M (i 0) (i 1)

theorem rowsProd_apply (X : FVec Ideal S24x6890 .f32) (M : FVec Ideal S1723x6890 .f32) (i : S24x1723.Idx)
    (r : Fin 24) (o : Fin 1723) (h0 : (i 0).val = r.val) (h1 : (i 1).val = o.val) : rowsProd X M i = rowDot X M r o := by
  have e0 : (i 0 : Fin 24) = r := Fin.ext h0
  have e1 : (i 1 : Fin 1723) = o := Fin.ext h1
  unfold rowsProd
  rw [e0, e1]

variable (m : (ℓ : Loc nD τ sig) → Buf (Elt Ideal) ℓ) (ρ : Dev nD → PrngReg)

/-! ## The proof data -/

/-- The arrays as the region finds them; after the body at point `t` the input's buffer at its block, the slab's
    buffer at its block (zero past the matrix's end, where nothing is stated) and the output's buffer at its block of
    `rowsProd X M` (zero past the result's end, likewise); the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal))
        ((win0_2.blk t).view.read (Elt Ideal) (rowsProd (V m c main_v0) (V m c main_arg1)))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) :
    (dats m 0 c).after 2 t = win0_2.fill (grid0.coords t) (fun _ => (0 : EReal))
      ((win0_2.blk t).view.read (Elt Ideal) (rowsProd (V m c main_v0) (V m c main_arg1))) := by dsimp only [dats]

/-! ## What the body finds -/

theorem before0 (c : Dev nD) (t : Fin cfg0.N) (d) : (dats m 0 c).before 0 t d = iblk m c 0 t :=
  before0_0_of m (dats m 0 c) (A_eq m c 0) (after0_0 m c) t d

/-- The slab is fetched at every point: its buffer holds the block on the rows inside the matrix, `d` past them. -/
theorem before1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk
  rw [A_eq]

/-- The output's buffer is fresh at every point (every point writes its block back). -/
theorem before2 (c : Dev nD) (t : Fin cfg0.N) (d) : (dats m 0 c).before 2 t d = d :=
  (dats m 0 c).before_out_reset 2 rfl t
    (by
      rcases Nat.eq_zero_or_pos t.val with h | h
      · exact .inl h
      · exact .inr ⟨by omega, flush0_2 _⟩) d

/-! ## The printed index maps and cuts, decided over the grid -/

theorem grid_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) (0 : Fin 2) = win0_2.xsize (grid0.coords t) (1 : Fin 2)
    ∧ win0_1.xsize (grid0.coords t) (1 : Fin 2) = 6890
    ∧ win0_2.xsize (grid0.coords t) (0 : Fin 2) = 24
    ∧ win0_2.xsize (grid0.coords t) (1 : Fin 2) = min 384 (1723 - t.val * 384) :=
  (by decide +kernel : ∀ t : Fin grid0.N, _)

/-! ## The blocks, read at an index -/

/-- The input's block at any point is the whole flattened input. -/
theorem xblk_apply (c : Dev nD) (t : Fin cfg0.N) (p : Fin 24) (n : Fin 6890) :
    iblk m c 0 t (ix2 p n) = V m c main_v0 (ix2 p n) := by
  obtain ⟨e0, e1, -⟩ := grid_facts t
  show V m c main_v0 (((cfg0.win 0).blk t).view.emb (ix2 p n)) = V m c main_v0 (ix2 p n)
  have h : ((cfg0.win 0).blk t).view.emb (ix2 p n) = ix2 p n := by
    funext a; apply Fin.ext
    match a with
    | ⟨0, _⟩ => show win0_0.index t (0 : Fin 2) * 24 + 1 * p.val = p.val; rw [e0]; omega
    | ⟨1, _⟩ => show win0_0.index t (1 : Fin 2) * 6890 + 1 * n.val = n.val; rw [e1]; omega
  rw [h]

/-- The slab's block at point `t`: row `j₀` of the block is row `384·t + j₀` of the matrix. -/
theorem mblk_apply (c : Dev nD) (t : Fin cfg0.N) (j : ((cfg0.win 1).xblock (cfg0.grid.coords t)).Idx) (i' : S1723x6890.Idx)
    (h0 : (i' 0).val = t.val * 384 + (j 0).val) (h1 : (i' 1).val = (j 1).val) :
    iblk m c 1 t j = V m c main_arg1 i' := by
  obtain ⟨-, -, e0, e1, -⟩ := grid_facts t
  show V m c main_arg1 (((cfg0.win 1).blk t).view.emb j) = V m c main_arg1 i'
  have h : ((cfg0.win 1).blk t).view.emb j = i' := by
    funext a; apply Fin.ext
    match a with
    | ⟨0, _⟩ => show win0_1.index t (0 : Fin 2) * 384 + 1 * (j 0).val = (i' 0).val; rw [e0, h0]; omega
    | ⟨1, _⟩ => show win0_1.index t (1 : Fin 2) * 6890 + 1 * (j 1).val = (i' 1).val; rw [e1, h1]; omega
  rw [h]

/-- The output's block at point `t` of an array `G`: column `j₁` of the block is column `384·t + j₁` of the array. -/
theorem oblk_apply (G : FVec Ideal S24x1723 .f32) (t : Fin cfg0.N) (j : ((cfg0.win 2).xblock (cfg0.grid.coords t)).Idx)
    (i' : S24x1723.Idx) (h0 : (i' 0).val = (j 0).val) (h1 : (i' 1).val = t.val * 384 + (j 1).val) :
    ((cfg0.win 2).blk t).view.read (Elt Ideal) G j = G i' := by
  obtain ⟨-, -, -, -, e0, e1, -⟩ := grid_facts t
  show G (((cfg0.win 2).blk t).view.emb j) = G i'
  have h : ((cfg0.win 2).blk t).view.emb j = i' := by
    funext a; apply Fin.ext
    match a with
    | ⟨0, _⟩ => show win0_2.index t (0 : Fin 2) * 24 + 1 * (j 0).val = (i' 0).val; rw [e0, h0]; omega
    | ⟨1, _⟩ => show win0_2.index t (1 : Fin 2) * 384 + 1 * (j 1).val = (i' 1).val; rw [e1, h1]; omega
  rw [h]

end Cert.KernelIdeal.Data

end
-- ==== Proof.IdealObligation.lean ====
/-
  The body obligation of the idealized kernel's pipeline, on the extended reals: at every point the body, handed the
  input's block, the matrix slab's block (anything past the matrix's last row) and a fresh output buffer, leaves the
  first two as found and the output buffer at the product — which, on the columns inside the result array, is the
  point's block of `rowsProd X M` whatever the slab's buffer held past the matrix's end.
-/
import proofs.«153325_g43009802502566_cont_9to1c4_365_17_alg».proof.Proof.IdealData

set_option maxRecDepth 16384

noncomputable section

open scoped BigOperators

namespace Cert.KernelIdeal.Obligation

open Cert.KernelIdeal Cert.KernelIdeal.Gen Cert.KernelIdeal.Body Cert.KernelIdeal.Pay Cert.KernelIdeal.Data
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- THE LOCALITY OF THE PRODUCT. On the columns of the output block that lie inside the result array, the product of
    the input's block by the slab's buffer — the slab's block on the rows inside the matrix, ANY `d` past them — is
    the point's block of `rowsProd X M`: column `e` of the product reads row `e` of the buffer only, and a column
    inside the result names a row inside the matrix. -/
theorem cut_pay (c : Dev nD) (t : Fin cfg0.N) (d : S384x6890.Idx → EReal) :
    win0_2.cut (grid0.coords t) (k0_pay1 (F := Ideal) (iblk m c 0 t) (win0_1.fill (grid0.coords t) d (iblk m c 1 t)))
      = (win0_2.blk t).view.read (Elt Ideal) (rowsProd (V m c main_v0) (V m c main_arg1)) := by
  obtain ⟨-, -, -, -, -, -, g0, g1, g2, g3⟩ := grid_facts t
  funext j
  have hj0 : (j 0).val < 24 := by
    have h : (j 0).val < win0_2.xsize (grid0.coords t) (0 : Fin 2) := (j 0).isLt
    rw [g2] at h; exact h
  have hj1' : (j 1).val < min 384 (1723 - t.val * 384) := by
    have h : (j 1).val < win0_2.xsize (grid0.coords t) (1 : Fin 2) := (j 1).isLt
    rw [g3] at h; exact h
  have hj1 : (j 1).val < 384 := lt_of_lt_of_le hj1' (min_le_left _ _)
  have ho : t.val * 384 + (j 1).val < 1723 := by
    have := lt_of_lt_of_le hj1' (min_le_right _ _); omega
  show k0_pay1 (F := Ideal) (iblk m c 0 t) (win0_1.fill (grid0.coords t) d (iblk m c 1 t)) (win0_2.xinj (grid0.coords t) j) = _
  have hx : win0_2.xinj (grid0.coords t) j = ix2 (⟨(j 0).val, hj0⟩ : Fin 24) (⟨(j 1).val, hj1⟩ : Fin 384) :=
    funext fun a => Fin.ext (by match a with | ⟨0, _⟩ => rfl | ⟨1, _⟩ => rfl)
  rw [hx]
  refine (pay_apply (iblk m c 0 t) (win0_1.fill (grid0.coords t) d (iblk m c 1 t)) ⟨(j 0).val, hj0⟩ ⟨(j 1).val, hj1⟩).trans ?_
  rw [oblk_apply (rowsProd (V m c main_v0) (V m c main_arg1)) t j
    (ix2 (⟨(j 0).val, hj0⟩ : Fin 24) (⟨t.val * 384 + (j 1).val, ho⟩ : Fin 1723)) rfl rfl,
    rowsProd_apply (V m c main_v0) (V m c main_arg1) _ ⟨(j 0).val, hj0⟩ ⟨t.val * 384 + (j 1).val, ho⟩ rfl rfl]
  unfold rowDot
  refine Finset.sum_congr rfl fun n _ => ?_
  have hm : win0_1.moved (grid0.coords t) (ix2 (⟨(j 1).val, hj1⟩ : Fin 384) n) = true :=
    (win0_1.moved_iff _ _).mpr fun a => by
      match a with
      | ⟨0, _⟩ => show (j 1).val < win0_1.xsize (grid0.coords t) (0 : Fin 2); rw [g0]; exact (j 1).isLt
      | ⟨1, _⟩ => show n.val < win0_1.xsize (grid0.coords t) (1 : Fin 2); rw [g1]; exact n.isLt
  have hf : win0_1.fill (grid0.coords t) d (iblk m c 1 t) (ix2 (⟨(j 1).val, hj1⟩ : Fin 384) n)
      = V m c main_arg1 (ix2 (⟨t.val * 384 + (j 1).val, ho⟩ : Fin 1723) n) := by
    unfold Window.fill
    rw [dif_pos hm]
    exact mblk_apply m c t _ _ rfl rfl
  rw [hf, xblk_apply m c t ⟨(j 0).val, hj0⟩ n]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1, before2 m c t d2]
  iapply (sound_kernel (F := Ideal) c Set.univ (grid0.coords t) _ _ _ _ _ _ (iblk m c 0 t)
    (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · rw [after0_0]; iexact H0
  isplitl [H1]
  · iexists d1
    rw [after0_1, Window.cut_fill]
    iexact H1
  · iexists (out (F := Ideal) (iblk m c 0 t) (win0_1.fill (grid0.coords t) d1 (iblk m c 1 t)))
    rw [after0_2, Window.cut_fill, ← cut_pay m c t d1, ← out_eq, Window.fill_cut]
    iexact H2

/-- The library's body obligation, at every point. -/
theorem body_obligation (c : Dev nD) :
    BodyObligationLoose (dats m 0 c) (defs₀ (F := Ideal)) Variants.none () Set.univ := fun t => by
  rw [bigSep_W0, bigSep_W0]
  exact sound_body m c t

end Cert.KernelIdeal.Obligation

end
-- ==== Proof.IdealRun.lean ====
/-
  The idealized kernel's run, on the extended reals: the body obligation handed to the library's launch of a
  one-region program whose @main goes on after the region; and from it the frame (both argument arrays end as
  launched).
-/
import proofs.«153325_g43009802502566_cont_9to1c4_365_17_alg».proof.Proof.IdealObligation

set_option maxRecDepth 16384

noncomputable section

namespace Cert.KernelIdeal.Run

open Cert.KernelIdeal Cert.KernelIdeal.Gen Cert.KernelIdeal.Data Cert.KernelIdeal.Obligation
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every weakly fair execution of @main terminates, and every final state has each array of the pipeline at what the
    write-backs made of it and every other unscoped buffer as the line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the two argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Run

end
-- ==== Proof.Spec.lean ====
/-
  The function both programs compute: for a batch `b`, a channel `c` and an output vertex `o`,
  `out[b, c, o] = ∑ₙ x[b, c, n] · M[o, n]` over the 6890 input vertices, on the extended reals — the dense
  matrix `M` applied to every channel of every batch element. Stated over literal shapes, with no program in sight.
-/
import Idealize.ShloMosaic.PureOps.Ideal
import Idealize.ShloMosaic.Lib.ValueIdx

noncomputable section

open scoped BigOperators

namespace Cert.Spec

open Idealize.ShloMosaic Idealize.ShloMosaic.ValueIdx

/-- One entry of the product, by coordinates: the sum over the input vertices of `x[b, c, n] · M[o, n]`. -/
def g (x : FVec Ideal ⟨3, ![8, 3, 6890]⟩ .f32) (M : FVec Ideal ⟨2, ![1723, 6890]⟩ .f32)
    (b : Fin 8) (c : Fin 3) (o : Fin 1723) : EReal :=
  ∑ n : Fin 6890, x (ix3 b c n) * M (ix2 o n)

/-- The whole result array `[8, 3, 1723]`, index by index. -/
def G (x : FVec Ideal ⟨3, ![8, 3, 6890]⟩ .f32) (M : FVec Ideal ⟨2, ![1723, 6890]⟩ .f32) :
    FVec Ideal ⟨3, ![8, 3, 1723]⟩ .f32 :=
  fun i => g x M (i 0) (i 1) (i 2)

theorem G_ix3 (x : FVec Ideal ⟨3, ![8, 3, 6890]⟩ .f32) (M : FVec Ideal ⟨2, ![1723, 6890]⟩ .f32)
    (b : Fin 8) (c : Fin 3) (o : Fin 1723) : G x M (ix3 b c o) = g x M b c o := rfl

end Cert.Spec

end
-- ==== Proof.IdealFlat.lean ====
/-
  The flattened input the kernel's region finds. The program's first line reshapes the argument `x : [8, 3, 6890]` to
  `[24, 6890]` in row-major order, so row `r = 3·b + ch` of the flattened array is `x[b, ch, ·]`: the flat position of
  `(b, ch, n)` is `(b·3 + ch)·6890 + n`, that of `(r, n)` is `r·6890 + n`.
-/
import proofs.«153325_g43009802502566_cont_9to1c4_365_17_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Flat

open Cert.KernelIdeal Cert.KernelIdeal.Gen Idealize.ShloMosaic Idealize.ShloMosaic.TcCoe Idealize.ShloMosaic.ValueIdx Idealize.SL.Sem

/-- A row-major reshape `[8, 3, 6890] → [24, 6890]` read at `(r, n)` with `r = 3·b + ch` is the operand at `(b, ch, n)`:
    the two indices have the same flat position. -/
theorem shapeCast_row {α : Type} (x : S8x3x6890.Idx → α) (h : S8x3x6890.ShapeCasts S24x6890)
    (b : Fin 8) (ch : Fin 3) (n : Fin 6890) (r : Fin 24) (hr : r.val = 3 * b.val + ch.val) :
    shapeCast S24x6890 x h (ix2 r n) = x (ix3 b ch n) := by
  refine shapeCast_apply x h (ix2 r n) (ix3 b ch n) ?_
  rewrite [Shape.rowMajor_val_three, Shape.rowMajor_val_two]
  show (b.val * 3 + ch.val) * 6890 + n.val = r.val * 6890 + n.val
  rw [hr, Nat.mul_comm 3 b.val]

/-- The array the region reads its first window from is the reshape of the argument as launched: the one host
    operation before the region writes it, and nothing else does. -/
theorem V_main_v0 (m : (ℓ : Loc nD τ sig) → Buf (Elt Ideal) ℓ) (c : Dev nD) :
    (V m c main_v0 : S24x6890.Idx → EReal)
      = shapeCast S24x6890 (m ((c : Thread nD τ).loc main_arg0)) shapeCasts_S8x3x6890_S24x6890 := by
  show StableHlo.after hostOps0 (fun b => m (c, b)) (Proc.devRef .tc main_v0) = _
  after_results
  rfl

/-- Row `3·b + ch` of the flattened input is `x[b, ch, ·]`. -/
theorem xflat (m : (ℓ : Loc nD τ sig) → Buf (Elt Ideal) ℓ) (c : Dev nD) (b : Fin 8) (ch : Fin 3) (n : Fin 6890) (r : Fin 24) (hr : r.val = 3 * b.val + ch.val) :
    V m c main_v0 (ix2 r n) = m ((c : Thread nD τ).loc main_arg0) (ix3 b ch n) := by
  have e := V_main_v0 m c
  exact (congrFun e (ix2 r n)).trans (shapeCast_row _ shapeCasts_S8x3x6890_S24x6890 b ch n r hr)

end Cert.KernelIdeal.Flat

end
-- ==== Proof.IdealValue.lean ====
/-
  The value of the idealized program, on the extended reals: the region's output array ends holding every row of the
  flattened input against every row of the matrix, and the program's result — that array recast to [8, 3, 1723] — is
  the product the specification names.

  The output's five blocks of 384 columns cover the 1723 columns of the result, the last block cut at the array's end
  (1723 = 4·384 + 187); each point writes back its block of the ONE array `rowsProd X M`, so after every write-back
  the array is `rowsProd X M`. The reshape after the region keeps row-major positions: entry (b, ch, o) of the result
  is entry (3·b + ch, o) of the region's output, and row 3·b + ch of the flattened input is row (b, ch) of the input.
-/
import proofs.«153325_g43009802502566_cont_9to1c4_365_17_alg».proof.Proof.IdealData
import proofs.«153325_g43009802502566_cont_9to1c4_365_17_alg».proof.Proof.Spec
import proofs.«153325_g43009802502566_cont_9to1c4_365_17_alg».proof.Proof.IdealFlat
set_option maxRecDepth 16384

noncomputable section

open scoped BigOperators

namespace Cert.KernelIdeal.Value2

open Cert.KernelIdeal Cert.KernelIdeal.Gen Cert.KernelIdeal.Data
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## What the region's output array ends holding -/

/-- What point `t` writes back is its block of the one array `rowsProd X M`: the body leaves that block in the
    leading part of the buffer, and the write-back moves the leading part. -/
theorem flushed2 (c : Dev nD) (t : Fin cfg0.N) :
    (dats m 0 c).flushed 2 t
      = ((cfg0.win 2).blk t).view.read (Elt Ideal) (rowsProd (V m c main_v0) (V m c main_arg1)) := by
  show (cfg0.win 2).cut (grid0.coords t) ((dats m 0 c).after 2 t) = _
  rw [after0_2]
  exact Window.cut_fill _ _ _ _

/-- An index of the result is in point `t`'s block iff each coordinate is in the block's range on its axis: from the
    block's offset, for the block's extent as cut at the array's end. -/
theorem mem_blk2 (t : Fin cfg0.N) (i : S24x1723.Idx) :
    i ∈ ((cfg0.win 2).blk t).view.set ↔ ∀ a : Fin 2, win0_2.index t a * S24x384.size a ≤ (i a).val
      ∧ (i a).val < win0_2.index t a * S24x384.size a + win0_2.xsize (grid0.coords t) a := by
  show i ∈ ((View.whole main_v1).slice (win0_2.rect t)).set ↔ _
  rw [View.set_slice_whole, Rect.mem_set_unit]
  exact Iff.rfl

/-- The five blocks cover the result: column `o` lies in the block of point `o / 384`, whose columns are
    `384·t … 384·t + min 384 (1723 − 384·t) − 1`; every row lies in every block. -/
theorem cover2 (i : S24x1723.Idx) :
    ∃ t : Fin cfg0.N, (cfg0.win 2).flush t = true ∧ i ∈ ((cfg0.win 2).blk t).view.set := by
  have hi0 : (i 0).val < 24 := (i 0).isLt
  have hi1 : (i 1).val < 1723 := (i 1).isLt
  have hN : (i 1).val / 384 < cfg0.N := by show _ < grid0.N; rw [N_0]; omega
  refine ⟨⟨(i 1).val / 384, hN⟩, flush0_2 _, ?_⟩
  rw [mem_blk2]
  obtain ⟨-, -, -, -, e0, e1, -, -, x0, x1⟩ := grid_facts ⟨(i 1).val / 384, hN⟩
  intro a
  match a with
  | ⟨0, _⟩ =>
    show win0_2.index ⟨(i 1).val / 384, hN⟩ (0 : Fin 2) * 24 ≤ (i 0).val
      ∧ (i 0).val < win0_2.index ⟨(i 1).val / 384, hN⟩ (0 : Fin 2) * 24 + win0_2.xsize (grid0.coords ⟨(i 1).val / 384, hN⟩) (0 : Fin 2)
    rw [e0, x0]; omega
  | ⟨1, _⟩ =>
    show win0_2.index ⟨(i 1).val / 384, hN⟩ (1 : Fin 2) * 384 ≤ (i 1).val
      ∧ (i 1).val < win0_2.index ⟨(i 1).val / 384, hN⟩ (1 : Fin 2) * 384 + win0_2.xsize (grid0.coords ⟨(i 1).val / 384, hN⟩) (1 : Fin 2)
    rw [e1, x1]
    show (i 1).val / 384 * 384 ≤ (i 1).val ∧ (i 1).val < (i 1).val / 384 * 384 + min 384 (1723 - (i 1).val / 384 * 384)
    omega

/-- The result array after the run: `rowsProd X M` of the arrays as the region finds them. -/
theorem final (c : Dev nD) : (dats m 0 c).arrAt 2 cfg0.N = rowsProd (V m c main_v0) (V m c main_arg1) :=
  (dats m 0 c).arrAt_eq_of_cover 2 _ (fun t _ => flushed2 m c t) cover2

/-! ## The host line after the region -/

/-- A [24, 1723] array cast to [8, 3, 1723] reads, at (b, ch, o), row 3·b + ch, column o. -/
theorem unflat_apply {α : Type} (x : S24x1723.Idx → α) (h : S24x1723.ShapeCasts S8x3x1723)
    (b : Fin 8) (ch : Fin 3) (o : Fin 1723) (r : Fin 24) (hr : r.val = 3 * b.val + ch.val) :
    shapeCast S8x3x1723 x h (ix3 b ch o) = x (ix2 r o) :=
  shapeCast_apply x h _ _ (by
    rw [Shape.rowMajor_val_two, Shape.rowMajor_val_three]
    show r.val * 1723 + o.val = (b.val * 3 + ch.val) * 1723 + o.val
    rw [hr]; omega)

/-- The region leaves `rowsProd X M` in its output array. -/
theorem exit_v1 (c : Dev nD) :
    (Pipeline.withArrays (cfgs 0).spec c (V0 m c) (fun w => (dats m 0 c).arrAt w (cfgs 0).N) (Proc.devRef .tc main_v1)
      : S24x1723.Idx → EReal) = rowsProd (V m c main_v0) (V m c main_arg1) :=
  (Pipeline.withArrays_arr spec0 launch0.win.arr_inj c _ _ 2).trans (final m c)

/-- The program's result: the region's output recast to [8, 3, 1723] is the product the specification names. Entry
    (b, ch, o) of the result is entry (3·b + ch, o) of the region's output, the sum over the 6890 input vertices of
    row 3·b + ch of the flattened input — row (b, ch) of the input — against row o of the matrix. -/
theorem tail
    (c : Dev nD) : Pipeline.afterTail₀ cfgs (dats m) 0 (V0 m) [hostOps1] c main_v2
      = Cert.Spec.G (m ((c : Thread nD τ).loc main_arg0)) (m ((c : Thread nD τ).loc main_arg1)) := by
  unfold Pipeline.afterTail₀
  show StableHlo.after hostOps1 _ (Proc.devRef .tc main_v2) = _
  after_results
  rw [exit_v1]
  funext i
  obtain ⟨b, ch, o, rfl⟩ : ∃ (b : Fin 8) (ch : Fin 3) (o : Fin 1723), i = ix3 b ch o :=
    ⟨i 0, i 1, i 2, eq_ix3 (n0 := 8) (n1 := 3) (n2 := 1723) i⟩
  have hr : (⟨3 * b.val + ch.val, by omega⟩ : Fin 24).val = 3 * b.val + ch.val := rfl
  refine (unflat_apply _ shapeCasts_S24x1723_S8x3x1723 b ch o ⟨3 * b.val + ch.val, by omega⟩ hr).trans ?_
  rw [Cert.Spec.G_ix3, rowsProd_apply _ _ _ ⟨3 * b.val + ch.val, by omega⟩ o rfl rfl]
  unfold rowDot Cert.Spec.g
  refine Finset.sum_congr (M := EReal) rfl fun n _ => ?_
  rw [Flat.xflat m c b ch n ⟨3 * b.val + ch.val, by omega⟩ hr, V_main_arg1 m c]

end Cert.KernelIdeal.Value2

end
-- ==== Proof.IdealResult.lean ====
/-
  What the idealized kernel computes: after the run its result array holds, index by index,
  `out[b, c, o] = ∑ₙ x[b, c, n] · M[o, n]` of the argument arrays as launched, and those end unchanged.
-/
import proofs.«153325_g43009802502566_cont_9to1c4_365_17_alg».proof.Proof.IdealRun
import proofs.«153325_g43009802502566_cont_9to1c4_365_17_alg».proof.Proof.IdealValue
import proofs.«153325_g43009802502566_cont_9to1c4_365_17_alg».proof.Proof.Spec

set_option maxRecDepth 16384

noncomputable section

namespace Cert.KernelIdeal.Result

open Cert.KernelIdeal Cert.KernelIdeal.Gen Cert.KernelIdeal.Data Cert.KernelIdeal.Run
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The run, read at the result and at the arguments: the result is a buffer no window stages, written by the one
    line after the region from the region's output array; an argument is a staged input or a buffer nothing writes. -/
theorem value : θ_run defs (onTc (τ := τ) (main (F := Ideal))) ⟨m, fun _ => 0, ρ⟩ (fun r => ∀ c : Dev nD,
      r.2.mem ((c.tc : Thread nD τ).loc main_v2)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (Cert.KernelIdeal.Value2.tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Result

end
-- ==== Proof.RefValue.lean ====
/-
  The reference program's result, read on the extended reals, is the specification function `G`, index by index.

  The reference moves the contracted axis of `x` last-but-one (`[8, 3, 6890] → [8, 6890, 3]`), and for each batch
  element `b` takes row `b`, drops the unit axis, and multiplies: `(M · x[b]ᵀ)[o, c] = ∑ₖ M[o, k] · x[b, c, k]`.
  The eight `[1723, 3]` products get a leading unit axis, are joined along it into `[8, 1723, 3]`, and the last two
  axes are exchanged. So the entry at `(b, c, o)` is the joined array at `(b, o, c)`, which is piece `b` at
  `(0, o, c)`, which is the `b`-th product at `(o, c)`: the sum over `k` of `M[o, k] · x[b, c, k]`, and the factors
  commute.
-/
import proofs.«153325_g43009802502566_cont_9to1c4_365_17_alg».proof.Proof.Spec
import proofs.«153325_g43009802502566_cont_9to1c4_365_17_alg».proof.Proof.Gen.ReferenceIdeal.Read

noncomputable section

open scoped BigOperators

namespace Cert.RefValue

open Cert.ReferenceIdeal Cert.ReferenceIdeal.Gen Cert.ReferenceIdeal.Read Idealize.ShloMosaic Idealize.ShloMosaic.ValueIdx

/-! ## The join along axis 0 of unit-thickness pieces, read at `(k, o, c)` -/

/-- A join along axis 0 into `[8, 1723, 3]` whose `k`-th piece is `y`, of shape `[1, 1723, 3]`, and whose pieces before
    it have total thickness `k`: the entry at `(k, o, c)` is `y` at `(0, o, c)`. -/
theorem cat_piece {α : Type} (xs : List ((s : Shape) × (s.Idx → α)))
    (h : Shape.Concatenates (xs.map (·.1)) S8x1723x3 0)
    (k : Nat) (hk8 : k < 8) (hk : k < xs.length) (y : S1x1723x3.Idx → α) (hxk : xs[k] = ⟨S1x1723x3, y⟩)
    (hpre : (((xs.take k).map (·.1)).map fun s =>
      if h : s.rank = S8x1723x3.rank then s.size ((0 : Fin S8x1723x3.rank).cast h.symm) else 0).sum = k)
    (o : Fin 1723) (c : Fin 3) :
    concatenate S8x1723x3 0 xs h (ix3 (⟨k, hk8⟩ : Fin 8) o c) = y (ix3 (0 : Fin 1) o c) :=
  concatenate_apply_piece 0 xs h (ix3 (⟨k, hk8⟩ : Fin 8) o c) k hk S1x1723x3 y hxk rfl k hpre (ix3 (0 : Fin 1) o c)
    (fun b hb => match b with
      | ⟨0, _⟩ => absurd rfl hb
      | ⟨1, _⟩ => rfl
      | ⟨2, _⟩ => rfl)
    rfl

/-! ## Batch element 0 -/

/-- The product for batch element 0: `(M · x[0]ᵀ)[o, c] = ∑ₙ x[0, c, n] · M[o, n]`. Row `0` of the transposed
    input, with its unit axis dropped, read at `(n, c)` is `x[0, c, n]`: the flat position `n · 3 + c` splits back
    into `n` and `c` because `c < 3`. -/
theorem prod_0 (x0 : (⟨S8x3x6890, .f32⟩ : BufTy).Contents (Elt Ideal)) (x1 : (⟨S1723x6890, .f32⟩ : BufTy).Contents (Elt Ideal))
    (hB : 0 < 8) (o : Fin 1723) (c : Fin 3) :
    val_main_v3 (F := Ideal) x0 x1 (ix2 o c) = ∑ n : Fin 6890, x0 (ix3 (⟨0, hB⟩ : Fin 8) c n) * x1 (ix2 o n) := by
  rw [val_main_v3_apply]
  refine Finset.sum_congr rfl fun k _ => ?_
  rw [val_main_v2_apply, val_main_v1_apply, val_main_v0_apply, mul_comm]
  have e1 : lidx_main_v3 (ix2 o c) k = ix2 o k := funext fun a => Fin.ext (by
    match a with
    | ⟨0, _⟩ => rfl
    | ⟨1, _⟩ => rfl)
  have e2 : idx_main_v0 (idx_main_v1 (idx_main_v2 (ridx_main_v3 (ix2 o c) k))) = ix3 (⟨0, hB⟩ : Fin 8) c k :=
    funext fun a => Fin.ext (by
      have hc : c.val < 3 := c.isLt
      have hk : k.val < 6890 := k.isLt
      match a with
      | ⟨0, _⟩ => rfl
      | ⟨1, _⟩ => show (k.val * 3 + c.val) % 3 = c.val; omega
      | ⟨2, _⟩ => show (k.val * 3 + c.val) / 3 % 6890 = k.val; omega)
  rw [e1, e2]

/-- The joined array at `(0, o, c)` is piece 0 at `(0, o, c)`, the product for batch element 0 at `(o, c)`. -/
theorem out_0 (x0 : (⟨S8x3x6890, .f32⟩ : BufTy).Contents (Elt Ideal)) (x1 : (⟨S1723x6890, .f32⟩ : BufTy).Contents (Elt Ideal))
    (hB : 0 < 8) (o : Fin 1723) (c : Fin 3) :
    val_main_v33 (F := Ideal) x0 x1 (ix3 (⟨0, hB⟩ : Fin 8) o c)
      = ∑ n : Fin 6890, x0 (ix3 (⟨0, hB⟩ : Fin 8) c n) * x1 (ix2 o n) := by
  have hp : val_main_v25 (F := Ideal) x0 x1 (ix3 (0 : Fin 1) o c) = val_main_v3 (F := Ideal) x0 x1 (ix2 o c) := by
    rw [val_main_v25_apply]
    have e : idx_main_v25 (ix3 (0 : Fin 1) o c) = ix2 o c := funext fun a => Fin.ext (by
      match a with
      | ⟨0, _⟩ => rfl
      | ⟨1, _⟩ => rfl)
    rw [e]
  rw [← prod_0 x0 x1 hB o c, ← hp]
  unfold val_main_v33
  generalize val_main_v25 (F := Ideal) x0 x1 = y0
  generalize val_main_v26 (F := Ideal) x0 x1 = y1
  generalize val_main_v27 (F := Ideal) x0 x1 = y2
  generalize val_main_v28 (F := Ideal) x0 x1 = y3
  generalize val_main_v29 (F := Ideal) x0 x1 = y4
  generalize val_main_v30 (F := Ideal) x0 x1 = y5
  generalize val_main_v31 (F := Ideal) x0 x1 = y6
  generalize val_main_v32 (F := Ideal) x0 x1 = y7
  exact cat_piece _ _ 0 hB (by exact hB) y0 rfl rfl o c

/-! ## Batch element 1 -/

/-- The product for batch element 1: `(M · x[1]ᵀ)[o, c] = ∑ₙ x[1, c, n] · M[o, n]`. Row `1` of the transposed
    input, with its unit axis dropped, read at `(n, c)` is `x[1, c, n]`: the flat position `n · 3 + c` splits back
    into `n` and `c` because `c < 3`. -/
theorem prod_1 (x0 : (⟨S8x3x6890, .f32⟩ : BufTy).Contents (Elt Ideal)) (x1 : (⟨S1723x6890, .f32⟩ : BufTy).Contents (Elt Ideal))
    (hB : 1 < 8) (o : Fin 1723) (c : Fin 3) :
    val_main_v6 (F := Ideal) x0 x1 (ix2 o c) = ∑ n : Fin 6890, x0 (ix3 (⟨1, hB⟩ : Fin 8) c n) * x1 (ix2 o n) := by
  rw [val_main_v6_apply]
  refine Finset.sum_congr rfl fun k _ => ?_
  rw [val_main_v5_apply, val_main_v4_apply, val_main_v0_apply, mul_comm]
  have e1 : lidx_main_v6 (ix2 o c) k = ix2 o k := funext fun a => Fin.ext (by
    match a with
    | ⟨0, _⟩ => rfl
    | ⟨1, _⟩ => rfl)
  have e2 : idx_main_v0 (idx_main_v4 (idx_main_v5 (ridx_main_v6 (ix2 o c) k))) = ix3 (⟨1, hB⟩ : Fin 8) c k :=
    funext fun a => Fin.ext (by
      have hc : c.val < 3 := c.isLt
      have hk : k.val < 6890 := k.isLt
      match a with
      | ⟨0, _⟩ => rfl
      | ⟨1, _⟩ => show (k.val * 3 + c.val) % 3 = c.val; omega
      | ⟨2, _⟩ => show (k.val * 3 + c.val) / 3 % 6890 = k.val; omega)
  rw [e1, e2]

/-- The joined array at `(1, o, c)` is piece 1 at `(0, o, c)`, the product for batch element 1 at `(o, c)`. -/
theorem out_1 (x0 : (⟨S8x3x6890, .f32⟩ : BufTy).Contents (Elt Ideal)) (x1 : (⟨S1723x6890, .f32⟩ : BufTy).Contents (Elt Ideal))
    (hB : 1 < 8) (o : Fin 1723) (c : Fin 3) :
    val_main_v33 (F := Ideal) x0 x1 (ix3 (⟨1, hB⟩ : Fin 8) o c)
      = ∑ n : Fin 6890, x0 (ix3 (⟨1, hB⟩ : Fin 8) c n) * x1 (ix2 o n) := by
  have hp : val_main_v26 (F := Ideal) x0 x1 (ix3 (0 : Fin 1) o c) = val_main_v6 (F := Ideal) x0 x1 (ix2 o c) := by
    rw [val_main_v26_apply]
    have e : idx_main_v26 (ix3 (0 : Fin 1) o c) = ix2 o c := funext fun a => Fin.ext (by
      match a with
      | ⟨0, _⟩ => rfl
      | ⟨1, _⟩ => rfl)
    rw [e]
  rw [← prod_1 x0 x1 hB o c, ← hp]
  unfold val_main_v33
  generalize val_main_v25 (F := Ideal) x0 x1 = y0
  generalize val_main_v26 (F := Ideal) x0 x1 = y1
  generalize val_main_v27 (F := Ideal) x0 x1 = y2
  generalize val_main_v28 (F := Ideal) x0 x1 = y3
  generalize val_main_v29 (F := Ideal) x0 x1 = y4
  generalize val_main_v30 (F := Ideal) x0 x1 = y5
  generalize val_main_v31 (F := Ideal) x0 x1 = y6
  generalize val_main_v32 (F := Ideal) x0 x1 = y7
  exact cat_piece _ _ 1 hB (by exact hB) y1 rfl rfl o c

/-! ## Batch element 2 -/

/-- The product for batch element 2: `(M · x[2]ᵀ)[o, c] = ∑ₙ x[2, c, n] · M[o, n]`. Row `2` of the transposed
    input, with its unit axis dropped, read at `(n, c)` is `x[2, c, n]`: the flat position `n · 3 + c` splits back
    into `n` and `c` because `c < 3`. -/
theorem prod_2 (x0 : (⟨S8x3x6890, .f32⟩ : BufTy).Contents (Elt Ideal)) (x1 : (⟨S1723x6890, .f32⟩ : BufTy).Contents (Elt Ideal))
    (hB : 2 < 8) (o : Fin 1723) (c : Fin 3) :
    val_main_v9 (F := Ideal) x0 x1 (ix2 o c) = ∑ n : Fin 6890, x0 (ix3 (⟨2, hB⟩ : Fin 8) c n) * x1 (ix2 o n) := by
  rw [val_main_v9_apply]
  refine Finset.sum_congr rfl fun k _ => ?_
  rw [val_main_v8_apply, val_main_v7_apply, val_main_v0_apply, mul_comm]
  have e1 : lidx_main_v9 (ix2 o c) k = ix2 o k := funext fun a => Fin.ext (by
    match a with
    | ⟨0, _⟩ => rfl
    | ⟨1, _⟩ => rfl)
  have e2 : idx_main_v0 (idx_main_v7 (idx_main_v8 (ridx_main_v9 (ix2 o c) k))) = ix3 (⟨2, hB⟩ : Fin 8) c k :=
    funext fun a => Fin.ext (by
      have hc : c.val < 3 := c.isLt
      have hk : k.val < 6890 := k.isLt
      match a with
      | ⟨0, _⟩ => rfl
      | ⟨1, _⟩ => show (k.val * 3 + c.val) % 3 = c.val; omega
      | ⟨2, _⟩ => show (k.val * 3 + c.val) / 3 % 6890 = k.val; omega)
  rw [e1, e2]

/-- The joined array at `(2, o, c)` is piece 2 at `(0, o, c)`, the product for batch element 2 at `(o, c)`. -/
theorem out_2 (x0 : (⟨S8x3x6890, .f32⟩ : BufTy).Contents (Elt Ideal)) (x1 : (⟨S1723x6890, .f32⟩ : BufTy).Contents (Elt Ideal))
    (hB : 2 < 8) (o : Fin 1723) (c : Fin 3) :
    val_main_v33 (F := Ideal) x0 x1 (ix3 (⟨2, hB⟩ : Fin 8) o c)
      = ∑ n : Fin 6890, x0 (ix3 (⟨2, hB⟩ : Fin 8) c n) * x1 (ix2 o n) := by
  have hp : val_main_v27 (F := Ideal) x0 x1 (ix3 (0 : Fin 1) o c) = val_main_v9 (F := Ideal) x0 x1 (ix2 o c) := by
    rw [val_main_v27_apply]
    have e : idx_main_v27 (ix3 (0 : Fin 1) o c) = ix2 o c := funext fun a => Fin.ext (by
      match a with
      | ⟨0, _⟩ => rfl
      | ⟨1, _⟩ => rfl)
    rw [e]
  rw [← prod_2 x0 x1 hB o c, ← hp]
  unfold val_main_v33
  generalize val_main_v25 (F := Ideal) x0 x1 = y0
  generalize val_main_v26 (F := Ideal) x0 x1 = y1
  generalize val_main_v27 (F := Ideal) x0 x1 = y2
  generalize val_main_v28 (F := Ideal) x0 x1 = y3
  generalize val_main_v29 (F := Ideal) x0 x1 = y4
  generalize val_main_v30 (F := Ideal) x0 x1 = y5
  generalize val_main_v31 (F := Ideal) x0 x1 = y6
  generalize val_main_v32 (F := Ideal) x0 x1 = y7
  exact cat_piece _ _ 2 hB (by exact hB) y2 rfl rfl o c

/-! ## Batch element 3 -/

/-- The product for batch element 3: `(M · x[3]ᵀ)[o, c] = ∑ₙ x[3, c, n] · M[o, n]`. Row `3` of the transposed
    input, with its unit axis dropped, read at `(n, c)` is `x[3, c, n]`: the flat position `n · 3 + c` splits back
    into `n` and `c` because `c < 3`. -/
theorem prod_3 (x0 : (⟨S8x3x6890, .f32⟩ : BufTy).Contents (Elt Ideal)) (x1 : (⟨S1723x6890, .f32⟩ : BufTy).Contents (Elt Ideal))
    (hB : 3 < 8) (o : Fin 1723) (c : Fin 3) :
    val_main_v12 (F := Ideal) x0 x1 (ix2 o c) = ∑ n : Fin 6890, x0 (ix3 (⟨3, hB⟩ : Fin 8) c n) * x1 (ix2 o n) := by
  rw [val_main_v12_apply]
  refine Finset.sum_congr rfl fun k _ => ?_
  rw [val_main_v11_apply, val_main_v10_apply, val_main_v0_apply, mul_comm]
  have e1 : lidx_main_v12 (ix2 o c) k = ix2 o k := funext fun a => Fin.ext (by
    match a with
    | ⟨0, _⟩ => rfl
    | ⟨1, _⟩ => rfl)
  have e2 : idx_main_v0 (idx_main_v10 (idx_main_v11 (ridx_main_v12 (ix2 o c) k))) = ix3 (⟨3, hB⟩ : Fin 8) c k :=
    funext fun a => Fin.ext (by
      have hc : c.val < 3 := c.isLt
      have hk : k.val < 6890 := k.isLt
      match a with
      | ⟨0, _⟩ => rfl
      | ⟨1, _⟩ => show (k.val * 3 + c.val) % 3 = c.val; omega
      | ⟨2, _⟩ => show (k.val * 3 + c.val) / 3 % 6890 = k.val; omega)
  rw [e1, e2]

/-- The joined array at `(3, o, c)` is piece 3 at `(0, o, c)`, the product for batch element 3 at `(o, c)`. -/
theorem out_3 (x0 : (⟨S8x3x6890, .f32⟩ : BufTy).Contents (Elt Ideal)) (x1 : (⟨S1723x6890, .f32⟩ : BufTy).Contents (Elt Ideal))
    (hB : 3 < 8) (o : Fin 1723) (c : Fin 3) :
    val_main_v33 (F := Ideal) x0 x1 (ix3 (⟨3, hB⟩ : Fin 8) o c)
      = ∑ n : Fin 6890, x0 (ix3 (⟨3, hB⟩ : Fin 8) c n) * x1 (ix2 o n) := by
  have hp : val_main_v28 (F := Ideal) x0 x1 (ix3 (0 : Fin 1) o c) = val_main_v12 (F := Ideal) x0 x1 (ix2 o c) := by
    rw [val_main_v28_apply]
    have e : idx_main_v28 (ix3 (0 : Fin 1) o c) = ix2 o c := funext fun a => Fin.ext (by
      match a with
      | ⟨0, _⟩ => rfl
      | ⟨1, _⟩ => rfl)
    rw [e]
  rw [← prod_3 x0 x1 hB o c, ← hp]
  unfold val_main_v33
  generalize val_main_v25 (F := Ideal) x0 x1 = y0
  generalize val_main_v26 (F := Ideal) x0 x1 = y1
  generalize val_main_v27 (F := Ideal) x0 x1 = y2
  generalize val_main_v28 (F := Ideal) x0 x1 = y3
  generalize val_main_v29 (F := Ideal) x0 x1 = y4
  generalize val_main_v30 (F := Ideal) x0 x1 = y5
  generalize val_main_v31 (F := Ideal) x0 x1 = y6
  generalize val_main_v32 (F := Ideal) x0 x1 = y7
  exact cat_piece _ _ 3 hB (by exact hB) y3 rfl rfl o c

/-! ## Batch element 4 -/

/-- The product for batch element 4: `(M · x[4]ᵀ)[o, c] = ∑ₙ x[4, c, n] · M[o, n]`. Row `4` of the transposed
    input, with its unit axis dropped, read at `(n, c)` is `x[4, c, n]`: the flat position `n · 3 + c` splits back
    into `n` and `c` because `c < 3`. -/
theorem prod_4 (x0 : (⟨S8x3x6890, .f32⟩ : BufTy).Contents (Elt Ideal)) (x1 : (⟨S1723x6890, .f32⟩ : BufTy).Contents (Elt Ideal))
    (hB : 4 < 8) (o : Fin 1723) (c : Fin 3) :
    val_main_v15 (F := Ideal) x0 x1 (ix2 o c) = ∑ n : Fin 6890, x0 (ix3 (⟨4, hB⟩ : Fin 8) c n) * x1 (ix2 o n) := by
  rw [val_main_v15_apply]
  refine Finset.sum_congr rfl fun k _ => ?_
  rw [val_main_v14_apply, val_main_v13_apply, val_main_v0_apply, mul_comm]
  have e1 : lidx_main_v15 (ix2 o c) k = ix2 o k := funext fun a => Fin.ext (by
    match a with
    | ⟨0, _⟩ => rfl
    | ⟨1, _⟩ => rfl)
  have e2 : idx_main_v0 (idx_main_v13 (idx_main_v14 (ridx_main_v15 (ix2 o c) k))) = ix3 (⟨4, hB⟩ : Fin 8) c k :=
    funext fun a => Fin.ext (by
      have hc : c.val < 3 := c.isLt
      have hk : k.val < 6890 := k.isLt
      match a with
      | ⟨0, _⟩ => rfl
      | ⟨1, _⟩ => show (k.val * 3 + c.val) % 3 = c.val; omega
      | ⟨2, _⟩ => show (k.val * 3 + c.val) / 3 % 6890 = k.val; omega)
  rw [e1, e2]

/-- The joined array at `(4, o, c)` is piece 4 at `(0, o, c)`, the product for batch element 4 at `(o, c)`. -/
theorem out_4 (x0 : (⟨S8x3x6890, .f32⟩ : BufTy).Contents (Elt Ideal)) (x1 : (⟨S1723x6890, .f32⟩ : BufTy).Contents (Elt Ideal))
    (hB : 4 < 8) (o : Fin 1723) (c : Fin 3) :
    val_main_v33 (F := Ideal) x0 x1 (ix3 (⟨4, hB⟩ : Fin 8) o c)
      = ∑ n : Fin 6890, x0 (ix3 (⟨4, hB⟩ : Fin 8) c n) * x1 (ix2 o n) := by
  have hp : val_main_v29 (F := Ideal) x0 x1 (ix3 (0 : Fin 1) o c) = val_main_v15 (F := Ideal) x0 x1 (ix2 o c) := by
    rw [val_main_v29_apply]
    have e : idx_main_v29 (ix3 (0 : Fin 1) o c) = ix2 o c := funext fun a => Fin.ext (by
      match a with
      | ⟨0, _⟩ => rfl
      | ⟨1, _⟩ => rfl)
    rw [e]
  rw [← prod_4 x0 x1 hB o c, ← hp]
  unfold val_main_v33
  generalize val_main_v25 (F := Ideal) x0 x1 = y0
  generalize val_main_v26 (F := Ideal) x0 x1 = y1
  generalize val_main_v27 (F := Ideal) x0 x1 = y2
  generalize val_main_v28 (F := Ideal) x0 x1 = y3
  generalize val_main_v29 (F := Ideal) x0 x1 = y4
  generalize val_main_v30 (F := Ideal) x0 x1 = y5
  generalize val_main_v31 (F := Ideal) x0 x1 = y6
  generalize val_main_v32 (F := Ideal) x0 x1 = y7
  exact cat_piece _ _ 4 hB (by exact hB) y4 rfl rfl o c

/-! ## Batch element 5 -/

/-- The product for batch element 5: `(M · x[5]ᵀ)[o, c] = ∑ₙ x[5, c, n] · M[o, n]`. Row `5` of the transposed
    input, with its unit axis dropped, read at `(n, c)` is `x[5, c, n]`: the flat position `n · 3 + c` splits back
    into `n` and `c` because `c < 3`. -/
theorem prod_5 (x0 : (⟨S8x3x6890, .f32⟩ : BufTy).Contents (Elt Ideal)) (x1 : (⟨S1723x6890, .f32⟩ : BufTy).Contents (Elt Ideal))
    (hB : 5 < 8) (o : Fin 1723) (c : Fin 3) :
    val_main_v18 (F := Ideal) x0 x1 (ix2 o c) = ∑ n : Fin 6890, x0 (ix3 (⟨5, hB⟩ : Fin 8) c n) * x1 (ix2 o n) := by
  rw [val_main_v18_apply]
  refine Finset.sum_congr rfl fun k _ => ?_
  rw [val_main_v17_apply, val_main_v16_apply, val_main_v0_apply, mul_comm]
  have e1 : lidx_main_v18 (ix2 o c) k = ix2 o k := funext fun a => Fin.ext (by
    match a with
    | ⟨0, _⟩ => rfl
    | ⟨1, _⟩ => rfl)
  have e2 : idx_main_v0 (idx_main_v16 (idx_main_v17 (ridx_main_v18 (ix2 o c) k))) = ix3 (⟨5, hB⟩ : Fin 8) c k :=
    funext fun a => Fin.ext (by
      have hc : c.val < 3 := c.isLt
      have hk : k.val < 6890 := k.isLt
      match a with
      | ⟨0, _⟩ => rfl
      | ⟨1, _⟩ => show (k.val * 3 + c.val) % 3 = c.val; omega
      | ⟨2, _⟩ => show (k.val * 3 + c.val) / 3 % 6890 = k.val; omega)
  rw [e1, e2]

/-- The joined array at `(5, o, c)` is piece 5 at `(0, o, c)`, the product for batch element 5 at `(o, c)`. -/
theorem out_5 (x0 : (⟨S8x3x6890, .f32⟩ : BufTy).Contents (Elt Ideal)) (x1 : (⟨S1723x6890, .f32⟩ : BufTy).Contents (Elt Ideal))
    (hB : 5 < 8) (o : Fin 1723) (c : Fin 3) :
    val_main_v33 (F := Ideal) x0 x1 (ix3 (⟨5, hB⟩ : Fin 8) o c)
      = ∑ n : Fin 6890, x0 (ix3 (⟨5, hB⟩ : Fin 8) c n) * x1 (ix2 o n) := by
  have hp : val_main_v30 (F := Ideal) x0 x1 (ix3 (0 : Fin 1) o c) = val_main_v18 (F := Ideal) x0 x1 (ix2 o c) := by
    rw [val_main_v30_apply]
    have e : idx_main_v30 (ix3 (0 : Fin 1) o c) = ix2 o c := funext fun a => Fin.ext (by
      match a with
      | ⟨0, _⟩ => rfl
      | ⟨1, _⟩ => rfl)
    rw [e]
  rw [← prod_5 x0 x1 hB o c, ← hp]
  unfold val_main_v33
  generalize val_main_v25 (F := Ideal) x0 x1 = y0
  generalize val_main_v26 (F := Ideal) x0 x1 = y1
  generalize val_main_v27 (F := Ideal) x0 x1 = y2
  generalize val_main_v28 (F := Ideal) x0 x1 = y3
  generalize val_main_v29 (F := Ideal) x0 x1 = y4
  generalize val_main_v30 (F := Ideal) x0 x1 = y5
  generalize val_main_v31 (F := Ideal) x0 x1 = y6
  generalize val_main_v32 (F := Ideal) x0 x1 = y7
  exact cat_piece _ _ 5 hB (by exact hB) y5 rfl rfl o c

/-! ## Batch element 6 -/

/-- The product for batch element 6: `(M · x[6]ᵀ)[o, c] = ∑ₙ x[6, c, n] · M[o, n]`. Row `6` of the transposed
    input, with its unit axis dropped, read at `(n, c)` is `x[6, c, n]`: the flat position `n · 3 + c` splits back
    into `n` and `c` because `c < 3`. -/
theorem prod_6 (x0 : (⟨S8x3x6890, .f32⟩ : BufTy).Contents (Elt Ideal)) (x1 : (⟨S1723x6890, .f32⟩ : BufTy).Contents (Elt Ideal))
    (hB : 6 < 8) (o : Fin 1723) (c : Fin 3) :
    val_main_v21 (F := Ideal) x0 x1 (ix2 o c) = ∑ n : Fin 6890, x0 (ix3 (⟨6, hB⟩ : Fin 8) c n) * x1 (ix2 o n) := by
  rw [val_main_v21_apply]
  refine Finset.sum_congr rfl fun k _ => ?_
  rw [val_main_v20_apply, val_main_v19_apply, val_main_v0_apply, mul_comm]
  have e1 : lidx_main_v21 (ix2 o c) k = ix2 o k := funext fun a => Fin.ext (by
    match a with
    | ⟨0, _⟩ => rfl
    | ⟨1, _⟩ => rfl)
  have e2 : idx_main_v0 (idx_main_v19 (idx_main_v20 (ridx_main_v21 (ix2 o c) k))) = ix3 (⟨6, hB⟩ : Fin 8) c k :=
    funext fun a => Fin.ext (by
      have hc : c.val < 3 := c.isLt
      have hk : k.val < 6890 := k.isLt
      match a with
      | ⟨0, _⟩ => rfl
      | ⟨1, _⟩ => show (k.val * 3 + c.val) % 3 = c.val; omega
      | ⟨2, _⟩ => show (k.val * 3 + c.val) / 3 % 6890 = k.val; omega)
  rw [e1, e2]

/-- The joined array at `(6, o, c)` is piece 6 at `(0, o, c)`, the product for batch element 6 at `(o, c)`. -/
theorem out_6 (x0 : (⟨S8x3x6890, .f32⟩ : BufTy).Contents (Elt Ideal)) (x1 : (⟨S1723x6890, .f32⟩ : BufTy).Contents (Elt Ideal))
    (hB : 6 < 8) (o : Fin 1723) (c : Fin 3) :
    val_main_v33 (F := Ideal) x0 x1 (ix3 (⟨6, hB⟩ : Fin 8) o c)
      = ∑ n : Fin 6890, x0 (ix3 (⟨6, hB⟩ : Fin 8) c n) * x1 (ix2 o n) := by
  have hp : val_main_v31 (F := Ideal) x0 x1 (ix3 (0 : Fin 1) o c) = val_main_v21 (F := Ideal) x0 x1 (ix2 o c) := by
    rw [val_main_v31_apply]
    have e : idx_main_v31 (ix3 (0 : Fin 1) o c) = ix2 o c := funext fun a => Fin.ext (by
      match a with
      | ⟨0, _⟩ => rfl
      | ⟨1, _⟩ => rfl)
    rw [e]
  rw [← prod_6 x0 x1 hB o c, ← hp]
  unfold val_main_v33
  generalize val_main_v25 (F := Ideal) x0 x1 = y0
  generalize val_main_v26 (F := Ideal) x0 x1 = y1
  generalize val_main_v27 (F := Ideal) x0 x1 = y2
  generalize val_main_v28 (F := Ideal) x0 x1 = y3
  generalize val_main_v29 (F := Ideal) x0 x1 = y4
  generalize val_main_v30 (F := Ideal) x0 x1 = y5
  generalize val_main_v31 (F := Ideal) x0 x1 = y6
  generalize val_main_v32 (F := Ideal) x0 x1 = y7
  exact cat_piece _ _ 6 hB (by exact hB) y6 rfl rfl o c

/-! ## Batch element 7 -/

/-- The product for batch element 7: `(M · x[7]ᵀ)[o, c] = ∑ₙ x[7, c, n] · M[o, n]`. Row `7` of the transposed
    input, with its unit axis dropped, read at `(n, c)` is `x[7, c, n]`: the flat position `n · 3 + c` splits back
    into `n` and `c` because `c < 3`. -/
theorem prod_7 (x0 : (⟨S8x3x6890, .f32⟩ : BufTy).Contents (Elt Ideal)) (x1 : (⟨S1723x6890, .f32⟩ : BufTy).Contents (Elt Ideal))
    (hB : 7 < 8) (o : Fin 1723) (c : Fin 3) :
    val_main_v24 (F := Ideal) x0 x1 (ix2 o c) = ∑ n : Fin 6890, x0 (ix3 (⟨7, hB⟩ : Fin 8) c n) * x1 (ix2 o n) := by
  rw [val_main_v24_apply]
  refine Finset.sum_congr rfl fun k _ => ?_
  rw [val_main_v23_apply, val_main_v22_apply, val_main_v0_apply, mul_comm]
  have e1 : lidx_main_v24 (ix2 o c) k = ix2 o k := funext fun a => Fin.ext (by
    match a with
    | ⟨0, _⟩ => rfl
    | ⟨1, _⟩ => rfl)
  have e2 : idx_main_v0 (idx_main_v22 (idx_main_v23 (ridx_main_v24 (ix2 o c) k))) = ix3 (⟨7, hB⟩ : Fin 8) c k :=
    funext fun a => Fin.ext (by
      have hc : c.val < 3 := c.isLt
      have hk : k.val < 6890 := k.isLt
      match a with
      | ⟨0, _⟩ => rfl
      | ⟨1, _⟩ => show (k.val * 3 + c.val) % 3 = c.val; omega
      | ⟨2, _⟩ => show (k.val * 3 + c.val) / 3 % 6890 = k.val; omega)
  rw [e1, e2]

/-- The joined array at `(7, o, c)` is piece 7 at `(0, o, c)`, the product for batch element 7 at `(o, c)`. -/
theorem out_7 (x0 : (⟨S8x3x6890, .f32⟩ : BufTy).Contents (Elt Ideal)) (x1 : (⟨S1723x6890, .f32⟩ : BufTy).Contents (Elt Ideal))
    (hB : 7 < 8) (o : Fin 1723) (c : Fin 3) :
    val_main_v33 (F := Ideal) x0 x1 (ix3 (⟨7, hB⟩ : Fin 8) o c)
      = ∑ n : Fin 6890, x0 (ix3 (⟨7, hB⟩ : Fin 8) c n) * x1 (ix2 o n) := by
  have hp : val_main_v32 (F := Ideal) x0 x1 (ix3 (0 : Fin 1) o c) = val_main_v24 (F := Ideal) x0 x1 (ix2 o c) := by
    rw [val_main_v32_apply]
    have e : idx_main_v32 (ix3 (0 : Fin 1) o c) = ix2 o c := funext fun a => Fin.ext (by
      match a with
      | ⟨0, _⟩ => rfl
      | ⟨1, _⟩ => rfl)
    rw [e]
  rw [← prod_7 x0 x1 hB o c, ← hp]
  unfold val_main_v33
  generalize val_main_v25 (F := Ideal) x0 x1 = y0
  generalize val_main_v26 (F := Ideal) x0 x1 = y1
  generalize val_main_v27 (F := Ideal) x0 x1 = y2
  generalize val_main_v28 (F := Ideal) x0 x1 = y3
  generalize val_main_v29 (F := Ideal) x0 x1 = y4
  generalize val_main_v30 (F := Ideal) x0 x1 = y5
  generalize val_main_v31 (F := Ideal) x0 x1 = y6
  generalize val_main_v32 (F := Ideal) x0 x1 = y7
  exact cat_piece _ _ 7 hB (by exact hB) y7 rfl rfl o c

/-! ## The result -/

/-- The reference's result is `G`: at `(b, c, o)` the last transpose reads the joined array at `(b, o, c)`, and each of
    the eight values of `b` is the lemma for that batch element. -/
theorem ref_eq (x0 : (⟨S8x3x6890, .f32⟩ : BufTy).Contents (Elt Ideal)) (x1 : (⟨S1723x6890, .f32⟩ : BufTy).Contents (Elt Ideal)) :
    val_main_v34 (F := Ideal) x0 x1 = Cert.Spec.G x0 x1 := by
  funext i
  obtain ⟨b, c, o, rfl⟩ : ∃ (b : Fin 8) (c : Fin 3) (o : Fin 1723), i = ix3 b c o := ⟨i 0, i 1, i 2, eq_ix3 i⟩
  rw [val_main_v34_apply, Cert.Spec.G_ix3]
  have e : idx_main_v34 (ix3 b c o) = ix3 b o c := funext fun a => Fin.ext (by
    match a with
    | ⟨0, _⟩ => rfl
    | ⟨1, _⟩ => rfl
    | ⟨2, _⟩ => rfl)
  rw [e]
  unfold Cert.Spec.g
  match b with
  | ⟨0, h⟩ => exact out_0 x0 x1 h o c
  | ⟨1, h⟩ => exact out_1 x0 x1 h o c
  | ⟨2, h⟩ => exact out_2 x0 x1 h o c
  | ⟨3, h⟩ => exact out_3 x0 x1 h o c
  | ⟨4, h⟩ => exact out_4 x0 x1 h o c
  | ⟨5, h⟩ => exact out_5 x0 x1 h o c
  | ⟨6, h⟩ => exact out_6 x0 x1 h o c
  | ⟨7, h⟩ => exact out_7 x0 x1 h o c

end Cert.RefValue

end
-- ==== Proof.lean ====
/-
  The certificate of a dense matrix applied to every channel of every batch element:
  `out[b, c, o] = ∑ₙ x[b, c, n] · M[o, n]` for `x : [8, 3, 6890]` and `M : [1723, 6890]`.

  The kernel flattens `x` to `X : [24, 6890]` and streams `M` through one pallas_call in five slabs of 384 rows; at
  slab `t` the body multiplies `X` by the slab over their shared last axis and writes columns `384·t …` of a
  `[24, 1723]` array, which is then reshaped to `[8, 3, 1723]`. The last slab overhangs the matrix by 197 rows and the
  last output block the result by 197 columns: the fetch leaves words nothing names past the matrix's end, and the
  write-back writes only the columns inside the result. The reference multiplies `M` by each batch element's transpose,
  stacks the eight products and transposes back.

  On the extended reals both are the same sums — entry `(r, o)` of the product reads row `o` of the matrix only, so the
  unnamed rows never reach a column that is written back — and the two differ by the order of the two factors in each
  term, which multiplication on the extended reals does not see. The precondition is never opened.

  The word-level kernel's matrix product may depend on the whole slab buffer, unnamed rows included; of it only the frame
  is claimed, and its proof data constrain what the body leaves in the output buffer without naming it.
-/
import proofs.«153325_g43009802502566_cont_9to1c4_365_17_alg».proof.Defs
import proofs.«153325_g43009802502566_cont_9to1c4_365_17_alg».proof.Proof.Gen.Kernel
import proofs.«153325_g43009802502566_cont_9to1c4_365_17_alg».proof.Proof.Gen.KernelIdeal
import proofs.«153325_g43009802502566_cont_9to1c4_365_17_alg».proof.Proof.Gen.ReferenceIdeal
import proofs.«153325_g43009802502566_cont_9to1c4_365_17_alg».proof.Proof.Gen.Pre_finite_inputs
import proofs.«153325_g43009802502566_cont_9to1c4_365_17_alg».proof.Proof.Gen.ReferenceIdeal.Run
import proofs.«153325_g43009802502566_cont_9to1c4_365_17_alg».proof.Proof.Gen.ReferenceIdeal.Read
import proofs.«153325_g43009802502566_cont_9to1c4_365_17_alg».proof.Proof.KernelFrame
import proofs.«153325_g43009802502566_cont_9to1c4_365_17_alg».proof.Proof.IdealResult
import proofs.«153325_g43009802502566_cont_9to1c4_365_17_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.HandFrame.frame m ρ

/-- So does the idealized kernel. -/
theorem frame_ki : Cert.frame_KernelIdeal := fun m ρ _ => Cert.KernelIdeal.Run.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result array and the reference's, from arguments that agree, are one function
    of the arguments: `∑ₙ x[b, c, n] · M[o, n]`. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
